-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S2x1x256 : Shape := ⟨3, ![2, 1, 256]⟩
abbrev S2x256x256 : Shape := ⟨3, ![2, 256, 256]⟩
abbrev S2048x256 : Shape := ⟨2, ![2048, 256]⟩
abbrev S1x1x256 : Shape := ⟨3, ![1, 1, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩
abbrev S_ : Shape := ⟨0, ![]⟩
abbrev S256x1 : Shape := ⟨2, ![256, 1]⟩

abbrev nBuf : Space → Nat
  | .hbm => 38
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S2x1x256, .f32⟩
  | .hbm, ⟨3, _⟩ => ⟨S2x256x256, .f32⟩
  | .hbm, ⟨4, _⟩ => ⟨S1x1x256, .f32⟩
  | .hbm, ⟨5, _⟩ => ⟨S256, .f32⟩
  | .hbm, ⟨6, _⟩ => ⟨S1x1x256, .f32⟩
  | .hbm, ⟨7, _⟩ => ⟨S256, .f32⟩
  | .hbm, ⟨8, _⟩ => ⟨S256, .f32⟩
  | .hbm, ⟨9, _⟩ => ⟨S1x256x256, .f32⟩
  | .hbm, ⟨10, _⟩ => ⟨S256x256, .f32⟩
  | .hbm, ⟨11, _⟩ => ⟨S1x256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S256x1, .f32⟩
  | .hbm, ⟨18, _⟩ => ⟨S1x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1x1x256, .f32⟩
  | .local _ .vmem, ⟨3, _⟩ => ⟨S1x1x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S1x256 : S256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S256x256_S1x256x256 : S256x256.ShapeCasts S1x256x256
  inb_S1x256x256_S1x256x256_0_0_0 : ∀ a, (![0, 0, 0] : Fin 3 → Nat) a + S1x256x256.size a ≤ S1x256x256.size a
  h_S1x256x256 : 0 < S1x256x256.numel
  slices_S2x1x256_S1x1x256_0_0_0 : S2x1x256.Slices ![0, 0, 0] S1x1x256
  shapeCasts_S1x1x256_S256 : S1x1x256.ShapeCasts S256
  slices_S2x1x256_S1x1x256_1_0_0 : S2x1x256.Slices ![1, 0, 0] S1x1x256
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  bcast_S_S256 : S_.BroadcastsInDim S256 (![] : Fin 0 → Fin S256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S_d0_1 : S256x256.ReducesTo [0, 1] S_
  h_S_ : 0 < S_.numel
  dot_S2048x256_S2048x256_S256x256_0_0_1_1_n_n_wf : DotDims.WF S2048x256 S2048x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S2x1x256.size a
  hwx0_1 : ∀ i : grid0.Coords, EltTy.bits .f32 = 32 ∨ (Rect.block (s := S2x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256 : Shape := ⟨1, ![256]⟩
abbrev S1x256 : Shape := ⟨2, ![1, 256]⟩
abbrev S256x256 : Shape := ⟨2, ![256, 256]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S8192x256, .f32⟩
  | .hbm, ⟨9, _⟩ => ⟨S8192x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S_, .f32⟩
  | .hbm, ⟨25, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S256x256 : S_.BroadcastsInDim S256x256 (![] : Fin 0 → Fin S256x256.rank)
  reducesTo_S256x256_S_d0_1 : S256x256.ReducesTo [0, 1] S_
  dot_S8192x256_S8192x256_S256x256_0_0_1_1_n_n_wf : DotDims.WF S8192x256 S8192x256 S256x256 [0] [0] [1] [1] [] []

variable [Facts₀]

def dot_S8192x256_S8192x256_S256x256_0_0_1_1_n_n : DotDims S8192x256 S8192x256 S256x256 where
  lhsContracting := [0]
  rhsContracting := [0]
  lhsNonContracting := [1]
  rhsNonContracting := [1]
  lhsBatch := []
  rhsBatch := []
  wf := dot_S8192x256_S8192x256_S256x256_0_0_1_1_n_n_wf

class Facts : Prop extends Facts₀ where

variable [Facts]
-- ==== Proof.Pieces.lean ====
/-
  What one grid step leaves in the two accumulators and, at a half's last step, in the two output blocks.

  The body keeps a running column sum (a [1,256] row) and a running matrix of products (a [256,256] matrix) in
  scratch. At the first step of a half (case A) it first stores zeros into both, reads them back, and stores
      row    := zeros + column sums of the step's [2048,256] block,
      matrix := zeros + (block transposed) times (block);
  at the second step (case B) it stores the same over what the step before left (xs0, xs1),
      row    := xs0 + column sums,      matrix := xs1 + (block transposed) times (block),
  and then copies the new row and the new matrix, reshaped to [1,1,256] and [1,256,256], into the output blocks.
  Each lemma reads the stores of one buffer back: the last store covers the whole buffer, so the buffer holds that
  store's value, in which every load of a whole buffer is the buffer's contents (a load after a covering store
  is the stored value). The values are stated over the body's named pure terms (k0_pay1 .. k0_pay6), for any
  float instance.
-/
import proofs.«180944_j55817394979131_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

/-- The zero offsets of a rank-2 and a rank-3 access, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case A, the running row: zeros plus the block's column sums. -/
theorem sA0 (c : Dev nD) (i : grid0.Coords) (a2 : Memref sig .tc .vmem S2048x256 .f32) (h2 : a2.IsWhole) (a3 : Memref sig .tc .vmem S1x1x256 .f32) (h3 : a3.IsWhole) (a4 : Memref sig .tc .vmem S1x256x256 .f32) (h4 : a4.IsWhole) (a5 : Memref sig .tc .vmem S1x256 .f32) (h5 : a5.IsWhole) (a6 : Memref sig .tc .vmem S256x256 .f32) (h6 : a6.IsWhole) (hc0 : cond0_0 i) (hc1 : ¬cond0_1 i) (x0 : Vec F S2048x256 .f32) :
    sout0_A_0 c i a2 h2 a3 h3 a4 h4 a5 h5 a6 h6 hc0 hc1 x0 = k0_pay3 x0 (k0_pay1 (F := F)) := by
  unfold sout0_A_0
  rw [View.read_writes_eq_canon _ _ _ (scover0_A_0 c i a2 h2 a3 h3 a4 h4 a5 h5 a6 h6 hc0 hc1 x0)]
  unfold kernelRun0_A
  dsimp only
  sl_unfold_words
  rw [View.canon_cons_unit_zero (S := S1x256) hz2, View.readCov_unit_zero (S := S1x256) _ hz2]
  simp only [View.readAt_eq_ld, h2.read_unread, View.ld_unit_zero (S := S2048x256) hz2, View.ld_unit_zero (S := S1x256) hz2]

/-- Case A, the running matrix: zeros plus the block's products. -/
theorem sA1 (c : Dev nD) (i : grid0.Coords) (a2 : Memref sig .tc .vmem S2048x256 .f32) (h2 : a2.IsWhole) (a3 : Memref sig .tc .vmem S1x1x256 .f32) (h3 : a3.IsWhole) (a4 : Memref sig .tc .vmem S1x256x256 .f32) (h4 : a4.IsWhole) (a5 : Memref sig .tc .vmem S1x256 .f32) (h5 : a5.IsWhole) (a6 : Memref sig .tc .vmem S256x256 .f32) (h6 : a6.IsWhole) (hc0 : cond0_0 i) (hc1 : ¬cond0_1 i) (x0 : Vec F S2048x256 .f32) :
    sout0_A_1 c i a2 h2 a3 h3 a4 h4 a5 h5 a6 h6 hc0 hc1 x0 = k0_pay4 x0 (k0_pay2 (F := F)) := by
  unfold sout0_A_1
  rw [View.read_writes_eq_canon _ _ _ (scover0_A_1 c i a2 h2 a3 h3 a4 h4 a5 h5 a6 h6 hc0 hc1 x0)]
  unfold kernelRun0_A
  dsimp only
  sl_unfold_words
  rw [View.canon_cons_unit_zero (S := S256x256) hz2, View.readCov_unit_zero (S := S256x256) _ hz2]
  simp only [View.readAt_eq_ld, h2.read_unread, View.ld_unit_zero (S := S2048x256) hz2, View.ld_unit_zero (S := S256x256) hz2]

/-- Case B, the running row: what the step before left plus the block's column sums. -/
theorem sB0 (c : Dev nD) (i : grid0.Coords) (a2 : Memref sig .tc .vmem S2048x256 .f32) (h2 : a2.IsWhole) (a3 : Memref sig .tc .vmem S1x1x256 .f32) (h3 : a3.IsWhole) (a4 : Memref sig .tc .vmem S1x256x256 .f32) (h4 : a4.IsWhole) (a5 : Memref sig .tc .vmem S1x256 .f32) (h5 : a5.IsWhole) (a6 : Memref sig .tc .vmem S256x256 .f32) (h6 : a6.IsWhole) (hc0 : ¬cond0_0 i) (hc1 : cond0_1 i) (x0 : Vec F S2048x256 .f32) (xs0 : Vec F S1x256 .f32) (xs1 : Vec F S256x256 .f32) :
    sout0_B_0 c i a2 h2 a3 h3 a4 h4 a5 h5 a6 h6 hc0 hc1 x0 xs0 xs1 = k0_pay3 x0 xs0 := by
  unfold sout0_B_0
  rw [View.read_writes_eq_canon _ _ _ (scover0_B_0 c i a2 h2 a3 h3 a4 h4 a5 h5 a6 h6 hc0 hc1 x0 xs0 xs1)]
  unfold kernelRun0_B
  dsimp only
  sl_unfold_words
  rw [View.canon_unit_zero hz2]
  simp only [View.readAt_eq_ld, h2.read_unread, h5.read_unread, View.ld_unit_zero (S := S2048x256) hz2, View.ld_unit_zero (S := S1x256) hz2]

/-- Case B, the running matrix: what the step before left plus the block's products. -/
theorem sB1 (c : Dev nD) (i : grid0.Coords) (a2 : Memref sig .tc .vmem S2048x256 .f32) (h2 : a2.IsWhole) (a3 : Memref sig .tc .vmem S1x1x256 .f32) (h3 : a3.IsWhole) (a4 : Memref sig .tc .vmem S1x256x256 .f32) (h4 : a4.IsWhole) (a5 : Memref sig .tc .vmem S1x256 .f32) (h5 : a5.IsWhole) (a6 : Memref sig .tc .vmem S256x256 .f32) (h6 : a6.IsWhole) (hc0 : ¬cond0_0 i) (hc1 : cond0_1 i) (x0 : Vec F S2048x256 .f32) (xs0 : Vec F S1x256 .f32) (xs1 : Vec F S256x256 .f32) :
    sout0_B_1 c i a2 h2 a3 h3 a4 h4 a5 h5 a6 h6 hc0 hc1 x0 xs0 xs1 = k0_pay4 x0 xs1 := by
  unfold sout0_B_1
  rw [View.read_writes_eq_canon _ _ _ (scover0_B_1 c i a2 h2 a3 h3 a4 h4 a5 h5 a6 h6 hc0 hc1 x0 xs0 xs1)]
  unfold kernelRun0_B
  dsimp only
  sl_unfold_words
  rw [View.canon_unit_zero hz2]
  simp only [View.readAt_eq_ld, h2.read_unread, h6.read_unread, View.ld_unit_zero (S := S2048x256) hz2, View.ld_unit_zero (S := S256x256) hz2]

/-- Case B, the first output block: the new running row, as a [1,1,256] block. -/
theorem oB1 (c : Dev nD) (i : grid0.Coords) (a2 : Memref sig .tc .vmem S2048x256 .f32) (h2 : a2.IsWhole) (a3 : Memref sig .tc .vmem S1x1x256 .f32) (h3 : a3.IsWhole) (a4 : Memref sig .tc .vmem S1x256x256 .f32) (h4 : a4.IsWhole) (a5 : Memref sig .tc .vmem S1x256 .f32) (h5 : a5.IsWhole) (a6 : Memref sig .tc .vmem S256x256 .f32) (h6 : a6.IsWhole) (hc0 : ¬cond0_0 i) (hc1 : cond0_1 i) (x0 : Vec F S2048x256 .f32) (xs0 : Vec F S1x256 .f32) (xs1 : Vec F S256x256 .f32) :
    out0_B_1 c i a2 h2 a3 h3 a4 h4 a5 h5 a6 h6 hc0 hc1 x0 xs0 xs1 = k0_pay5 (k0_pay3 x0 xs0) := by
  unfold out0_B_1
  rw [View.read_writes_eq_canon _ _ _ (cover0_B_1 c i a2 h2 a3 h3 a4 h4 a5 h5 a6 h6 hc0 hc1 x0 xs0 xs1)]
  unfold kernelRun0_B
  dsimp only
  sl_unfold_words
  rw [View.canon_unit_zero hz3, View.readCov_unit_zero (S := S1x256) _ hz2]
  simp only [View.readAt_eq_ld, h2.read_unread, h5.read_unread, View.ld_unit_zero (S := S2048x256) hz2, View.ld_unit_zero (S := S1x256) hz2]

/-- Case B, the second output block: the new running matrix, as a [1,256,256] block. -/
theorem oB2 (c : Dev nD) (i : grid0.Coords) (a2 : Memref sig .tc .vmem S2048x256 .f32) (h2 : a2.IsWhole) (a3 : Memref sig .tc .vmem S1x1x256 .f32) (h3 : a3.IsWhole) (a4 : Memref sig .tc .vmem S1x256x256 .f32) (h4 : a4.IsWhole) (a5 : Memref sig .tc .vmem S1x256 .f32) (h5 : a5.IsWhole) (a6 : Memref sig .tc .vmem S256x256 .f32) (h6 : a6.IsWhole) (hc0 : ¬cond0_0 i) (hc1 : cond0_1 i) (x0 : Vec F S2048x256 .f32) (xs0 : Vec F S1x256 .f32) (xs1 : Vec F S256x256 .f32) :
    out0_B_2 c i a2 h2 a3 h3 a4 h4 a5 h5 a6 h6 hc0 hc1 x0 xs0 xs1 = k0_pay6 (k0_pay4 x0 xs1) := by
  unfold out0_B_2
  rw [View.read_writes_eq_canon _ _ _ (cover0_B_2 c i a2 h2 a3 h3 a4 h4 a5 h5 a6 h6 hc0 hc1 x0 xs0 xs1)]
  unfold kernelRun0_B
  dsimp only
  sl_unfold_words
  rw [View.canon_unit_zero hz3, View.readCov_unit_zero (S := S256x256) _ hz2]
  simp only [View.readAt_eq_ld, h2.read_unread, h6.read_unread, View.ld_unit_zero (S := S2048x256) hz2, View.ld_unit_zero (S := S256x256) hz2]

end Cert.KernelIdeal.Pieces

end
-- ==== Proof.PayIdx.lean ====
/-
  The body's pure terms read at an index, over the extended reals.

  With a step's [2048,256] block b, a running row r ([1,256]) and a running matrix M ([256,256]):
    the zero row and the zero matrix read the word of +0.0 everywhere;
    the new row at (0, j) is            r (0, j) + sum_k b (k, j)            (a column sum over the block's rows);
    the new matrix at (i, j) is         M (i, j) + sum_k b (k, i) * b (k, j) (the block transposed times the block,
                                                                              accumulated into zeros, then added);
    the [1,1,256] and [1,256,256] output blocks read the row and the matrix with a leading unit axis put in front.
  A change of float format on the way into the product is the identity here, so the product's factors are the
  block's own entries.
-/
import proofs.«180944_j55817394979131_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-- The product's dimension record: rows contracted on both sides, columns kept. -/
abbrev DD := dot_S2048x256_S2048x256_S256x256_0_0_1_1_n_n

/-- The zero row reads the word of +0.0. -/
theorem pay1_apply (u : Fin 1) (j : Fin 256) : k0_pay1 (F := Ideal) (ix2 u j) = Ideal.ofBits .f32 0x00000000#32 := by
  unfold k0_pay1
  exact congrFun (shapeCast_self _ _) _

/-- The zero matrix reads the word of +0.0. -/
theorem pay2_apply (i j : Fin 256) : k0_pay2 (F := Ideal) (ix2 i j) = Ideal.ofBits .f32 0x00000000#32 := by
  unfold k0_pay2
  exact congrFun (shapeCast_self _ _) _

/-- The new running row: the old one plus the block's column sums. -/
theorem pay3_apply (b : Vec Ideal S2048x256 .f32) (r : Vec Ideal S1x256 .f32) (u : Fin 1) (j : Fin 256) :
    k0_pay3 b r (ix2 u j) = r (ix2 u j) + ∑ k : Fin 2048, b (ix2 k j) := by
  unfold k0_pay3
  refine (congrFun (shapeCast_self _ _) _).trans ?_
  refine congrArg (r (ix2 u j) + ·) ?_
  refine (shapeCast_a_1a_apply _ shapeCasts_S256_S1x256 u j).trans ?_
  refine (Ideal.multiReduction_add_single b 0x00000000#32 reduces_S2048x256_S256 (.inl rfl) rfl (ix1 j)).trans ?_
  refine Finset.sum_congr rfl fun k _ => congrArg b ?_
  exact funext fun a => Fin.ext (by match a with | ⟨0, _⟩ => rfl | ⟨1, _⟩ => rfl)

/-- The left operand's row coordinate is the contracted index; its column coordinate is the output's row. -/
theorem lhs_0 (o : S256x256.Idx) (q : DD.contr.Idx) : (DD.lhsIdx o q 0).val = (q ⟨0, by decide⟩).val :=
  DD.lhsIdx_val_of_single rfl o q
theorem lhs_1 (o : S256x256.Idx) (q : DD.contr.Idx) : (DD.lhsIdx o q 1).val = (o 0).val := by
  unfold DotDims.lhsIdx
  rw [dif_neg (show ¬(1 : Fin S2048x256.rank) ∈ DD.lhsBatch by decide),
    dif_pos (show (1 : Fin S2048x256.rank) ∈ DD.lhsNonContracting by decide)]
  rfl
/-- The right operand's row coordinate is the contracted index; its column coordinate is the output's column. -/
theorem rhs_0 (o : S256x256.Idx) (q : DD.contr.Idx) : (DD.rhsIdx o q 0).val = (q ⟨0, by decide⟩).val :=
  DD.rhsIdx_val_of_single rfl o q
theorem rhs_1 (o : S256x256.Idx) (q : DD.contr.Idx) : (DD.rhsIdx o q 1).val = (o 1).val := by
  unfold DotDims.rhsIdx
  rw [dif_neg (show ¬(1 : Fin S2048x256.rank) ∈ DD.rhsBatch by decide),
    dif_pos (show (1 : Fin S2048x256.rank) ∈ DD.rhsNonContracting by decide)]
  rfl

/-- The product's left operand index at output (i, j) and contracted row k is (k, i). -/
theorem lhs_idx (i j : Fin 256) (k : Fin 2048) :
    DD.lhsIdx (ix2 i j) ((contrEquiv1 DD 2048 rfl rfl).symm k) = ix2 k i := by
  have hk := contrEquiv1_symm_val DD 2048 rfl rfl k
  refine funext fun a => Fin.ext ?_
  match a with
  | ⟨0, _⟩ => exact (lhs_0 _ _).trans hk
  | ⟨1, _⟩ => exact lhs_1 _ _

/-- The product's right operand index at output (i, j) and contracted row k is (k, j). -/
theorem rhs_idx (i j : Fin 256) (k : Fin 2048) :
    DD.rhsIdx (ix2 i j) ((contrEquiv1 DD 2048 rfl rfl).symm k) = ix2 k j := by
  have hk := contrEquiv1_symm_val DD 2048 rfl rfl k
  refine funext fun a => Fin.ext ?_
  match a with
  | ⟨0, _⟩ => exact (rhs_0 _ _).trans hk
  | ⟨1, _⟩ => exact rhs_1 _ _

/-- The new running matrix: the old one plus the block's products, summed over the block's rows. -/
theorem pay4_apply (b : Vec Ideal S2048x256 .f32) (M : Vec Ideal S256x256 .f32) (i j : Fin 256) :
    k0_pay4 b M (ix2 i j) = M (ix2 i j) + ∑ k : Fin 2048, b (ix2 k i) * b (ix2 k j) := by
  unfold k0_pay4
  refine (congrFun (shapeCast_self _ _) _).trans ?_
  refine congrArg (M (ix2 i j) + ·) ?_
  refine (Ideal.matmul_constant_zero_apply DD none b b (ix2 i j)).trans ?_
  rw [← Equiv.sum_comp (contrEquiv1 DD 2048 rfl rfl).symm]
  refine Finset.sum_congr rfl fun k _ => ?_
  rw [lhs_idx, rhs_idx]

/-- The first output block reads the running row. -/
theorem pay5_apply (r : Vec Ideal S1x256 .f32) (u v : Fin 1) (j : Fin 256) : k0_pay5 r (ix3 u v j) = r (ix2 v j) := by
  unfold k0_pay5
  exact shapeCast_ab_1ab_apply r shapeCasts_S1x256_S1x1x256 u v j

/-- The second output block reads the running matrix. -/
theorem pay6_apply (M : Vec Ideal S256x256 .f32) (u : Fin 1) (i j : Fin 256) : k0_pay6 M (ix3 u i j) = M (ix2 i j) := by
  unfold k0_pay6
  exact shapeCast_ab_1ab_apply M shapeCasts_S256x256_S1x256x256 u i j

end Cert.KernelIdeal.PayIdx

end
-- ==== Proof.CovLaw.lean ====
/-
  The covariance identity over the reals, and the split of a sum over 8192 rows into four tiles of 2048.

  For a finite family of pairs (a k, b k) of reals and n = the number of terms (n nonzero), with the means
  A / n and B / n of the two columns (A = sum a, B = sum b), the mean of the centred products is the mean of the
  products minus the product of the means:
      (sum_k (a k - A / n) * (b k - B / n)) / n = (sum_k a k * b k) / n - (A / n) * (B / n).
  Expanding the product, the two cross terms are each -(A * B) / n and the constant term is n * (A / n) * (B / n)
  = (A * B) / n, so the centred sum is sum_k a k * b k - (A * B) / n.
-/
import Mathlib.Algebra.BigOperators.Fin
import Mathlib.Algebra.BigOperators.Field
import Mathlib.Data.Real.Basic
import Mathlib.Logic.Equiv.Fin.Basic
import Mathlib.Tactic.FieldSimp
import Mathlib.Tactic.Ring
import Mathlib.Tactic.Linarith

namespace CovLaw

open Finset

/-- The centred sum of products: sum_k (a k - A/n)(b k - B/n) = sum_k a k b k - A B / n, when n counts the terms. -/
theorem centred_sum {ι : Type*} [Fintype ι] (a b : ι → ℝ) (n : ℝ) (hn : n ≠ 0) (hcard : (Fintype.card ι : ℝ) = n) :
    ∑ k, (a k - (∑ l, a l) / n) * (b k - (∑ l, b l) / n) = (∑ k, a k * b k) - (∑ l, a l) * (∑ l, b l) / n := by
  have e : ∀ k, (a k - (∑ l, a l) / n) * (b k - (∑ l, b l) / n)
      = a k * b k - a k * ((∑ l, b l) / n) - ((∑ l, a l) / n) * b k + ((∑ l, a l) / n) * ((∑ l, b l) / n) :=
    fun k => by ring
  simp only [e, Finset.sum_add_distrib, Finset.sum_sub_distrib, ← Finset.sum_mul, ← Finset.mul_sum,
    Finset.sum_const, Finset.card_univ, nsmul_eq_mul, hcard]
  field_simp
  ring

/-- The covariance identity: the mean of centred products is the mean of products minus the product of means. -/
theorem cov_identity {ι : Type*} [Fintype ι] (a b : ι → ℝ) (n : ℝ) (hn : n ≠ 0) (hcard : (Fintype.card ι : ℝ) = n) :
    (∑ k, (a k - (∑ l, a l) / n) * (b k - (∑ l, b l) / n)) / n
      = (∑ k, a k * b k) / n - ((∑ l, a l) / n) * ((∑ l, b l) / n) := by
  rw [centred_sum a b n hn hcard]
  field_simp

/-- Row `k` of tile `t`: the 8192 rows are four tiles of 2048 consecutive rows. -/
def row (t : Fin 4) (k : Fin 2048) : Fin 8192 := ⟨t.val * 2048 + k.val, by have := t.isLt; have := k.isLt; omega⟩

/-- A sum over the 8192 rows is the sum over the four tiles of the sums over each tile's 2048 rows. -/
theorem sum_rows {M : Type*} [AddCommMonoid M] (f : Fin 8192 → M) : ∑ k, f k = ∑ t : Fin 4, ∑ r : Fin 2048, f (row t r) := by
  rw [← Equiv.sum_comp (finProdFinEquiv : Fin 4 × Fin 2048 ≃ Fin 8192) f, Fintype.sum_prod_type]
  refine Finset.sum_congr rfl fun t _ => Finset.sum_congr rfl fun r _ => congrArg f (Fin.ext ?_)
  show r.val + 2048 * t.val = t.val * 2048 + r.val
  omega

/-- The same, the four tiles written out in the order a two-by-two grid visits them:
    ((0 + tile 0) + tile 1) + ((0 + tile 2) + tile 3). -/
theorem sum_rows_grid (f : Fin 8192 → ℝ) :
    ((0 + ∑ r, f (row 0 r)) + ∑ r, f (row 1 r)) + ((0 + ∑ r, f (row 2 r)) + ∑ r, f (row 3 r)) = ∑ k, f k := by
  rw [sum_rows f, Fin.sum_univ_four]
  ring

end CovLaw
-- ==== Proof.CovSpec.lean ====
/-
  The two covariance matrices as explicit sums over the extended reals, and their equality on a real table.

  X is an [8192, 256] table. One side accumulates, for each half of the rows, a running column sum and a running
  matrix of products over two tiles of 2048 rows (zero, plus the first tile, plus the second), adds the two halves,
  divides by 8192 and subtracts the product of the column means:
      covK i j = (P i j) / 8192 - (S i / 8192) * (S j / 8192).
  The other centres every row by the column means first and divides the sum of products of centred entries by 8192:
      covR i j = (sum_k (X k i - m i) * (X k j - m j)) / 8192,   m i = (0 + sum_k X k i) / 8192.
  When every entry of X is a real number both are the coercion of a real expression, and the covariance identity
  (CovLaw.cov_identity) with the split of the 8192 rows into four tiles (CovLaw.sum_rows) makes them equal.
  Finiteness is needed: the identity distributes a product over a sum, which fails at the infinities.
-/
import proofs.«180944_j55817394979131_2_alg».proof.Proof.CovLaw
import Idealize.ShloMosaic.PureOps.Ideal.Laws
import Idealize.ShloMosaic.Lib.ValueIdx

noncomputable section

namespace CovSpec

open Idealize.ShloMosaic Idealize.ShloMosaic.ValueIdx CovLaw

/-- The table's shape. -/
abbrev SX : Shape := ⟨2, ![8192, 256]⟩

/-- The word of +0.0 and the word of 8192.0, as the extended reals they denote. -/
abbrev z32 : EReal := Ideal.ofBits .f32 0x00000000#32
abbrev n32 : EReal := Ideal.ofBits .f32 0x46000000#32

/-- The word 0x46000000 denotes the real 8192 (sign 0, exponent 140 = 127 + 13, fraction 0). -/
theorem n32_eq : n32 = ((8192 : ℝ) : EReal) := by
  show Ideal.ofBits .f32 0x46000000#32 = _
  simp [Ideal.ofBits, Ideal.ieee, -EReal.coe_mul]; norm_num

/-- The word of +0.0 denotes zero. -/
theorem z32_eq : z32 = 0 := Ideal.ofBits_zero_f32

/-- Coercion from the reals commutes with a finite sum. -/
theorem coe_sum {ι : Type*} (s : Finset ι) (f : ι → ℝ) : ∑ k ∈ s, ((f k : ℝ) : EReal) = ((∑ k ∈ s, f k : ℝ) : EReal) := by
  classical
  refine Finset.induction_on s (by simp) fun a s ha ih => ?_
  rw [Finset.sum_insert ha, Finset.sum_insert ha, ih, EReal.coe_add]

/-- Column `i` summed over tile `t`'s 2048 rows. -/
def colTile (X : SX.Idx → EReal) (t : Fin 4) (i : Fin 256) : EReal := ∑ k : Fin 2048, X (ix2 (row t k) i)
/-- Products of columns `i` and `j` summed over tile `t`'s rows. -/
def prodTile (X : SX.Idx → EReal) (t : Fin 4) (i j : Fin 256) : EReal :=
  ∑ k : Fin 2048, X (ix2 (row t k) i) * X (ix2 (row t k) j)
/-- A half's running column sum over its two tiles: zero, plus the first tile, plus the second. -/
def halfSum (X : SX.Idx → EReal) (t0 t1 : Fin 4) (i : Fin 256) : EReal := (z32 + colTile X t0 i) + colTile X t1 i
/-- A half's running matrix of products over its two tiles. -/
def halfProd (X : SX.Idx → EReal) (t0 t1 : Fin 4) (i j : Fin 256) : EReal := (z32 + prodTile X t0 i j) + prodTile X t1 i j
/-- The column mean from the two halves. -/
def meanK (X : SX.Idx → EReal) (i : Fin 256) : EReal := Ideal.div (halfSum X 0 1 i + halfSum X 2 3 i) n32
/-- Mean of products minus product of means. -/
def covK (X : SX.Idx → EReal) (i j : Fin 256) : EReal :=
  Ideal.div (halfProd X 0 1 i j + halfProd X 2 3 i j) n32 - meanK X i * meanK X j
/-- The column mean as one sum over all rows, from zero. -/
def meanR (X : SX.Idx → EReal) (i : Fin 256) : EReal := Ideal.div (z32 + ∑ k : Fin 8192, X (ix2 k i)) n32
/-- Mean of products of centred entries. -/
def covR (X : SX.Idx → EReal) (i j : Fin 256) : EReal :=
  Ideal.div (∑ k : Fin 8192, (X (ix2 k i) - meanR X i) * (X (ix2 k j) - meanR X j)) n32

/-- On a table of reals the two covariance entries agree. -/
theorem cov_eq (X : SX.Idx → EReal) (hX : ∀ idx, ∃ r : ℝ, X idx = (r : EReal)) (i j : Fin 256) :
    covK X i j = covR X i j := by
  choose x hx using hX
  have hn : (8192 : ℝ) ≠ 0 := by norm_num
  have hcard : ((Fintype.card (Fin 8192) : ℕ) : ℝ) = 8192 := by rw [Fintype.card_fin]; norm_num
  -- the tiles, as reals
  have hcol : ∀ t i, colTile X t i = ((∑ k : Fin 2048, x (ix2 (row t k) i) : ℝ) : EReal) := fun t i => by
    unfold colTile; simp only [hx]; exact coe_sum _ _
  have hprod : ∀ t i j, prodTile X t i j = ((∑ k : Fin 2048, x (ix2 (row t k) i) * x (ix2 (row t k) j) : ℝ) : EReal) :=
    fun t i j => by unfold prodTile; simp only [hx, ← EReal.coe_mul]; exact coe_sum _ _
  -- the halves joined are the sums over all 8192 rows
  have hS : ∀ i, halfSum X 0 1 i + halfSum X 2 3 i = ((∑ k : Fin 8192, x (ix2 k i) : ℝ) : EReal) := fun i => by
    unfold halfSum
    rw [hcol, hcol, hcol, hcol, z32_eq, ← EReal.coe_zero, ← EReal.coe_add, ← EReal.coe_add, ← EReal.coe_add,
      ← EReal.coe_add, ← EReal.coe_add, sum_rows_grid fun k => x (ix2 k i)]
  have hP : ∀ i j, halfProd X 0 1 i j + halfProd X 2 3 i j
      = ((∑ k : Fin 8192, x (ix2 k i) * x (ix2 k j) : ℝ) : EReal) := fun i j => by
    unfold halfProd
    rw [hprod, hprod, hprod, hprod, z32_eq, ← EReal.coe_zero, ← EReal.coe_add, ← EReal.coe_add, ← EReal.coe_add,
      ← EReal.coe_add, ← EReal.coe_add, sum_rows_grid fun k => x (ix2 k i) * x (ix2 k j)]
  have hmK : ∀ i, meanK X i = (((∑ k : Fin 8192, x (ix2 k i)) / 8192 : ℝ) : EReal) := fun i => by
    unfold meanK; rw [hS, n32_eq, Ideal.div_coe hn, ← EReal.coe_mul, mul_one_div]
  have hmR : ∀ i, meanR X i = (((∑ k : Fin 8192, x (ix2 k i)) / 8192 : ℝ) : EReal) := fun i => by
    unfold meanR
    simp only [hx]
    rw [coe_sum, z32_eq, zero_add, n32_eq, Ideal.div_coe hn, ← EReal.coe_mul, mul_one_div]
  unfold covK covR
  rw [hP, hmK, hmK, n32_eq, Ideal.div_coe hn, Ideal.div_coe hn, ← EReal.coe_mul, ← EReal.coe_mul, ← EReal.coe_sub]
  simp only [hx, hmR, ← EReal.coe_sub, ← EReal.coe_mul]
  (try rw [coe_sum])
  rw [← EReal.coe_mul, mul_one_div, mul_one_div,
    cov_identity (fun k => x (ix2 k i)) (fun k => x (ix2 k j)) 8192 hn hcard]

end CovSpec

end
-- ==== Proof.Arrays.lean ====
/-
  The two arrays the grid leaves: per half of the rows, the column sums and the matrix of products.

  The grid is two halves by two steps; point t = 2 * half + step reads tile t of the table (rows 2048 t .. 2048 t + 2047).
  At the second step of a half the body has accumulated, over the half's two tiles t - 1 and t,
      row    = (0 + column sums of tile t - 1) + column sums of tile t,
      matrix = (0 + products over tile t - 1) + products over tile t,
  and writes them to block `half` of the [2,1,256] and [2,256,256] result arrays; nothing is written back at a first
  step. The two blocks of each array are the two halves, so together they cover it, and the arrays end holding
      sums  (h, 0, j) = halfSum  X (2h) (2h+1) j,        prods (h, i, j) = halfProd X (2h) (2h+1) i j
  of the table X as the region finds it.
-/
import proofs.«180944_j55817394979131_2_alg».proof.Proof.Pieces
import proofs.«180944_j55817394979131_2_alg».proof.Proof.PayIdx
import proofs.«180944_j55817394979131_2_alg».proof.Proof.CovSpec
import proofs.«180944_j55817394979131_2_alg».proof.Proof.Gen.KernelIdeal.Frame
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen CovSpec CovLaw

variable (m : (ℓ : Loc nD τ sig) → Buf (Elt Ideal) ℓ)

/-! ## The index maps over the grid -/

/-- Point t reads tile t of the table and writes block t / 2 of each result array. -/
theorem idx_facts : ∀ t : Fin cfg0.N,
    win0_0.index t (0 : Fin 2) = t.val ∧ win0_0.index t (1 : Fin 2) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The table's block at point t, entry (k, j), is the table at row 2048 t + k. -/
theorem iblk_apply (c : Dev nD) (t : Fin cfg0.N) (u : Fin 4) (hu : u.val = t.val) (k : Fin 2048) (j : Fin 256) :
    (iblk m c 0 t : Vec Ideal S2048x256 .f32) (ix2 k j) = V m c main_arg0 (ix2 (row u k) j) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * k.val = u.val * 2048 + k.val; rw [e0, hu]; omega
  | ⟨1, _⟩ => show win0_0.index t (1 : Fin 2) * 256 + 1 * j.val = j.val; rw [e1]; omega

/-! ## What a half's second step leaves in the output blocks -/

theorem prev_lt (t : Fin cfg0.N) : t.val - 1 < cfg0.N := Nat.lt_of_le_of_lt (Nat.sub_le _ _) t.isLt

/-- After an odd point the first output block holds the running row over the point's tile and the one before. -/
theorem out1_odd (c : Dev nD) (t : Fin cfg0.N) (h1 : t.val % 2 = 1) :
    (outsAt0 m c t.val t.isLt).1
      = k0_pay5 (k0_pay3 (iblk m c 0 t) (k0_pay3 (iblk m c 0 ⟨t.val - 1, prev_lt t⟩) (k0_pay1 (F := Ideal)))) := by
  have h0 : ¬t.val % 2 = 0 := by omega
  have hp0 : (⟨t.val - 1, prev_lt t⟩ : Fin cfg0.N).val % 2 = 0 := by show (t.val - 1) % 2 = 0; omega
  have hp1 : ¬(⟨t.val - 1, prev_lt t⟩ : Fin cfg0.N).val % 2 = 1 := by show ¬(t.val - 1) % 2 = 1; omega
  have hA : outsAt0 m c (t.val - 1) (prev_lt t) = _ := outsAt0_A m c ⟨t.val - 1, prev_lt t⟩ hp0 hp1
  rw [outsAt0_B m c t h0 h1]
  dsimp only
  rw [Pieces.oB1, hA]
  dsimp only
  rw [Pieces.sA0]

/-- After an odd point the second output block holds the running matrix over the point's tile and the one before. -/
theorem out2_odd (c : Dev nD) (t : Fin cfg0.N) (h1 : t.val % 2 = 1) :
    (outsAt0 m c t.val t.isLt).2.1
      = k0_pay6 (k0_pay4 (iblk m c 0 t) (k0_pay4 (iblk m c 0 ⟨t.val - 1, prev_lt t⟩) (k0_pay2 (F := Ideal)))) := by
  have h0 : ¬t.val % 2 = 0 := by omega
  have hp0 : (⟨t.val - 1, prev_lt t⟩ : Fin cfg0.N).val % 2 = 0 := by show (t.val - 1) % 2 = 0; omega
  have hp1 : ¬(⟨t.val - 1, prev_lt t⟩ : Fin cfg0.N).val % 2 = 1 := by show ¬(t.val - 1) % 2 = 1; omega
  have hA : outsAt0 m c (t.val - 1) (prev_lt t) = _ := outsAt0_A m c ⟨t.val - 1, prev_lt t⟩ hp0 hp1
  rw [outsAt0_B m c t h0 h1]
  dsimp only
  rw [Pieces.oB2, hA]
  dsimp only
  rw [Pieces.sA1]

/-! ## The blocks as sums over the table -/

/-- The running row over two blocks that are tiles t0 and t1 of X: a half's column sums. -/
theorem row_value (b0 b1 : Vec Ideal S2048x256 .f32) (X : SX.Idx → EReal) (t0 t1 : Fin 4)
    (hb0 : ∀ k j, b0 (ix2 k j) = X (ix2 (row t0 k) j)) (hb1 : ∀ k j, b1 (ix2 k j) = X (ix2 (row t1 k) j))
    (y : S1x1x256.Idx) :
    k0_pay5 (k0_pay3 b1 (k0_pay3 b0 (k0_pay1 (F := Ideal)))) y = halfSum X t0 t1 ⟨(y 2).val, (y 2).isLt⟩ := by
  obtain ⟨u, v, j, rfl⟩ : ∃ (u v : Fin 1) (j : Fin 256), y = ix3 u v j := ⟨y 0, y 1, y 2, eq_ix3 y⟩
  rw [PayIdx.pay5_apply, PayIdx.pay3_apply, PayIdx.pay3_apply, PayIdx.pay1_apply]
  unfold halfSum colTile
  simp only [hb0, hb1]

/-- The running matrix over two blocks that are tiles t0 and t1 of X: a half's products. -/
theorem mat_value (b0 b1 : Vec Ideal S2048x256 .f32) (X : SX.Idx → EReal) (t0 t1 : Fin 4)
    (hb0 : ∀ k j, b0 (ix2 k j) = X (ix2 (row t0 k) j)) (hb1 : ∀ k j, b1 (ix2 k j) = X (ix2 (row t1 k) j))
    (y : S1x256x256.Idx) :
    k0_pay6 (k0_pay4 b1 (k0_pay4 b0 (k0_pay2 (F := Ideal)))) y
      = halfProd X t0 t1 ⟨(y 1).val, (y 1).isLt⟩ ⟨(y 2).val, (y 2).isLt⟩ := by
  obtain ⟨u, i, j, rfl⟩ : ∃ (u : Fin 1) (i j : Fin 256), y = ix3 u i j := ⟨y 0, y 1, y 2, eq_ix3 y⟩
  rw [PayIdx.pay6_apply, PayIdx.pay4_apply, PayIdx.pay4_apply, PayIdx.pay2_apply]
  unfold halfProd prodTile
  simp only [hb0, hb1]

/-! ## The two result arrays as functions of the table -/

/-- Tile `s` of half `h`. -/
def tile (h : Fin 2) (s : Fin 2) : Fin 4 := ⟨2 * h.val + s.val, by have := h.isLt; have := s.isLt; omega⟩

/-- The [2,1,256] array of per-half column sums. -/
def sums (X : SX.Idx → EReal) : S2x1x256.Idx → EReal := fun idx =>
  halfSum X (tile ⟨(idx 0).val, (idx 0).isLt⟩ 0) (tile ⟨(idx 0).val, (idx 0).isLt⟩ 1) ⟨(idx 2).val, (idx 2).isLt⟩

/-- The [2,256,256] array of per-half products. -/
def prods (X : SX.Idx → EReal) : S2x256x256.Idx → EReal := fun idx =>
  halfProd X (tile ⟨(idx 0).val, (idx 0).isLt⟩ 0) (tile ⟨(idx 0).val, (idx 0).isLt⟩ 1) ⟨(idx 1).val, (idx 1).isLt⟩
    ⟨(idx 2).val, (idx 2).isLt⟩

theorem sums_at (X : SX.Idx → EReal) (idx : S2x1x256.Idx) (t0 t1 : Fin 4) (j : Fin 256)
    (h0 : t0.val = 2 * (idx 0).val) (h1 : t1.val = 2 * (idx 0).val + 1) (hj : j.val = (idx 2).val) :
    sums X idx = halfSum X t0 t1 j := by
  unfold sums
  have e0 : tile ⟨(idx 0).val, (idx 0).isLt⟩ 0 = t0 := Fin.ext (by show 2 * (idx 0).val + 0 = t0.val; omega)
  have e1 : tile ⟨(idx 0).val, (idx 0).isLt⟩ 1 = t1 := Fin.ext (by show 2 * (idx 0).val + 1 = t1.val; omega)
  have e2 : (⟨(idx 2).val, (idx 2).isLt⟩ : Fin 256) = j := Fin.ext hj.symm
  rw [e0, e1, e2]

theorem prods_at (X : SX.Idx → EReal) (idx : S2x256x256.Idx) (t0 t1 : Fin 4) (i j : Fin 256)
    (h0 : t0.val = 2 * (idx 0).val) (h1 : t1.val = 2 * (idx 0).val + 1) (hi : i.val = (idx 1).val) (hj : j.val = (idx 2).val) :
    prods X idx = halfProd X t0 t1 i j := by
  unfold prods
  have e0 : tile ⟨(idx 0).val, (idx 0).isLt⟩ 0 = t0 := Fin.ext (by show 2 * (idx 0).val + 0 = t0.val; omega)
  have e1 : tile ⟨(idx 0).val, (idx 0).isLt⟩ 1 = t1 := Fin.ext (by show 2 * (idx 0).val + 1 = t1.val; omega)
  have e2 : (⟨(idx 1).val, (idx 1).isLt⟩ : Fin 256) = i := Fin.ext hi.symm
  have e3 : (⟨(idx 2).val, (idx 2).isLt⟩ : Fin 256) = j := Fin.ext hj.symm
  rw [e0, e1, e2, e3]

/-! ## What a flushing point writes back -/

/-- What an odd point writes back to the first array is its block of `sums`. -/
theorem flushed1_eq (c : Dev nD) (t : Fin cfg0.N) (hf : (cfg0.win 1).flush t = true) :
    (dats m 0 c).flushed 1 t = ((cfg0.win 1).blk t).view.read (Elt Ideal) (sums (V m c main_arg0)) := by
  have h1 : t.val % 2 = 1 := (flush0_1 t).mp hf
  have hN : t.val < 4 := lt_of_lt_of_eq t.isLt (show cfg0.N = 4 from N_0)
  obtain ⟨-, -, e0, e1, e2, -⟩ := idx_facts t
  show (cfg0.win 1).cut (grid0.coords t) ((dats m 0 c).after 1 t) = _
  rw [after0_1, out1_odd m c t h1]
  funext y
  show k0_pay5 (F := Ideal) _ ((cfg0.win 1).xinj (grid0.coords t) y) = sums (V m c main_arg0) (((cfg0.win 1).blk t).view.emb y)
  refine (row_value (iblk m c 0 ⟨t.val - 1, prev_lt t⟩) (iblk m c 0 t) (V m c main_arg0) ⟨t.val - 1, by omega⟩ ⟨t.val, hN⟩
    (fun k j => iblk_apply m c ⟨t.val - 1, prev_lt t⟩ ⟨t.val - 1, by omega⟩ rfl k j)
    (fun k j => iblk_apply m c t ⟨t.val, hN⟩ rfl k j) _).trans ?_
  have hy0 : (y 0).val < 1 := (y 0).isLt
  refine (sums_at (V m c main_arg0) _ _ _ _ ?_ ?_ ?_).symm
  · show t.val - 1 = 2 * (win0_1.index t (0 : Fin 3) * 1 + 1 * (y 0).val); rw [e0]; omega
  · show t.val = 2 * (win0_1.index t (0 : Fin 3) * 1 + 1 * (y 0).val) + 1; rw [e0]; omega
  · show (y 2).val = win0_1.index t (2 : Fin 3) * 256 + 1 * (y 2).val; rw [e2]; omega

/-- What an odd point writes back to the second array is its block of `prods`. -/
theorem flushed2_eq (c : Dev nD) (t : Fin cfg0.N) (hf : (cfg0.win 2).flush t = true) :
    (dats m 0 c).flushed 2 t = ((cfg0.win 2).blk t).view.read (Elt Ideal) (prods (V m c main_arg0)) := by
  have h1 : t.val % 2 = 1 := (flush0_2 t).mp hf
  have hN : t.val < 4 := lt_of_lt_of_eq t.isLt (show cfg0.N = 4 from N_0)
  obtain ⟨-, -, -, -, -, e0, e1, e2⟩ := idx_facts t
  show (cfg0.win 2).cut (grid0.coords t) ((dats m 0 c).after 2 t) = _
  rw [after0_2, out2_odd m c t h1]
  funext y
  show k0_pay6 (F := Ideal) _ ((cfg0.win 2).xinj (grid0.coords t) y) = prods (V m c main_arg0) (((cfg0.win 2).blk t).view.emb y)
  refine (mat_value (iblk m c 0 ⟨t.val - 1, prev_lt t⟩) (iblk m c 0 t) (V m c main_arg0) ⟨t.val - 1, by omega⟩ ⟨t.val, hN⟩
    (fun k j => iblk_apply m c ⟨t.val - 1, prev_lt t⟩ ⟨t.val - 1, by omega⟩ rfl k j)
    (fun k j => iblk_apply m c t ⟨t.val, hN⟩ rfl k j) _).trans ?_
  have hy0 : (y 0).val < 1 := (y 0).isLt
  refine (prods_at (V m c main_arg0) _ _ _ _ _ ?_ ?_ ?_ ?_).symm
  · show t.val - 1 = 2 * (win0_2.index t (0 : Fin 3) * 1 + 1 * (y 0).val); rw [e0]; omega
  · show t.val = 2 * (win0_2.index t (0 : Fin 3) * 1 + 1 * (y 0).val) + 1; rw [e0]; omega
  · show (y 1).val = win0_2.index t (1 : Fin 3) * 256 + 1 * (y 1).val; rw [e1]; omega
  · show (y 2).val = win0_2.index t (2 : Fin 3) * 256 + 1 * (y 2).val; rw [e2]; omega

/-! ## The cover and the arrays -/

/-- An index is in point t's block of the first array iff each coordinate is in the block's range. -/
theorem mem_blk1 (t : Fin cfg0.N) (i : S2x1x256.Idx) :
    i ∈ ((cfg0.win 1).blk t).view.set ↔ ∀ a : Fin 3, win0_1.index t a * S1x1x256.size a ≤ (i a).val ∧ (i a).val < win0_1.index t a * S1x1x256.size a + S1x1x256.size a := by
  show i ∈ ((View.whole main_v0_0).slice (win0_1.rect t)).set ↔ _
  rw [View.set_slice_whole, Rect.mem_set_unit]
  exact Iff.rfl

theorem mem_blk2 (t : Fin cfg0.N) (i : S2x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0_1).slice (win0_2.rect t)).set ↔ _
  rw [View.set_slice_whole, Rect.mem_set_unit]
  exact Iff.rfl

/-- Half h's block is written back by point 2 h + 1. -/
theorem cover1 (i : S2x1x256.Idx) : ∃ t : Fin cfg0.N, (cfg0.win 1).flush t = true ∧ i ∈ ((cfg0.win 1).blk t).view.set := by
  have hi0 : (i 0).val < 2 := (i 0).isLt
  have hi1 : (i 1).val < 1 := (i 1).isLt
  have hi2 : (i 2).val < 256 := (i 2).isLt
  have hN : cfg0.N = 4 := N_0
  refine ⟨⟨2 * (i 0).val + 1, by omega⟩, (flush0_1 _).mpr (by show (2 * (i 0).val + 1) % 2 = 1; omega), ?_⟩
  obtain ⟨-, -, e0, e1, e2, -⟩ := idx_facts ⟨2 * (i 0).val + 1, by omega⟩
  rw [mem_blk1]
  intro a
  match a with
  | ⟨0, _⟩ => show win0_1.index _ (0 : Fin 3) * 1 ≤ (i 0).val ∧ (i 0).val < win0_1.index _ (0 : Fin 3) * 1 + 1; rw [e0]; show (2 * (i 0).val + 1) / 2 * 1 ≤ (i 0).val ∧ (i 0).val < (2 * (i 0).val + 1) / 2 * 1 + 1; omega
  | ⟨1, _⟩ => show win0_1.index _ (1 : Fin 3) * 1 ≤ (i 1).val ∧ (i 1).val < win0_1.index _ (1 : Fin 3) * 1 + 1; rw [e1]; omega
  | ⟨2, _⟩ => show win0_1.index _ (2 : Fin 3) * 256 ≤ (i 2).val ∧ (i 2).val < win0_1.index _ (2 : Fin 3) * 256 + 256; rw [e2]; omega

theorem cover2 (i : S2x256x256.Idx) : ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 256 := (i 2).isLt
  have hN : cfg0.N = 4 := N_0
  refine ⟨⟨2 * (i 0).val + 1, by omega⟩, (flush0_2 _).mpr (by show (2 * (i 0).val + 1) % 2 = 1; omega), ?_⟩
  obtain ⟨-, -, -, -, -, e0, e1, e2⟩ := idx_facts ⟨2 * (i 0).val + 1, by omega⟩
  rw [mem_blk2]
  intro a
  match a with
  | ⟨0, _⟩ => show win0_2.index _ (0 : Fin 3) * 1 ≤ (i 0).val ∧ (i 0).val < win0_2.index _ (0 : Fin 3) * 1 + 1; rw [e0]; show (2 * (i 0).val + 1) / 2 * 1 ≤ (i 0).val ∧ (i 0).val < (2 * (i 0).val + 1) / 2 * 1 + 1; omega
  | ⟨1, _⟩ => show win0_2.index _ (1 : Fin 3) * 256 ≤ (i 1).val ∧ (i 1).val < win0_2.index _ (1 : Fin 3) * 256 + 256; rw [e1]; omega
  | ⟨2, _⟩ => show win0_2.index _ (2 : Fin 3) * 256 ≤ (i 2).val ∧ (i 2).val < win0_2.index _ (2 : Fin 3) * 256 + 256; rw [e2]; omega

/-- The first result array after the grid: the per-half column sums of the table. -/
theorem final1 (c : Dev nD) : (dats m 0 c).arrAt 1 cfg0.N = sums (V m c main_arg0) :=
  (dats m 0 c).arrAt_eq_of_cover 1 (sums (V m c main_arg0)) (flushed1_eq m c) cover1

/-- The second result array after the grid: the per-half products of the table. -/
theorem final2 (c : Dev nD) : (dats m 0 c).arrAt 2 cfg0.N = prods (V m c main_arg0) :=
  (dats m 0 c).arrAt_eq_of_cover 2 (prods (V m c main_arg0)) (flushed2_eq m c) cover2

end Cert.KernelIdeal.Arrays

end
-- ==== Proof.Tail.lean ====
/-
  The tail both programs share: from a [256,256] covariance matrix to the Frobenius distance from the identity.

  The identity matrix is built as the comparison of a row iota (plus a zero) with a column iota, converted to a float;
  the result is the square root of zero plus the sum over all entries of the squared difference (cov - identity).
  Both programs apply exactly these operations, in this order, to their covariance matrix, so the tail is one
  function of that matrix and is never opened: equal matrices give equal results.
-/
import Idealize.ShloMosaic.PureOps
import Idealize.ShloMosaic.PureOps.Ideal

noncomputable section

namespace CovTail

open Idealize.ShloMosaic

/-- The matrix shape and the scalar shape. -/
abbrev SM : Shape := ⟨2, ![256, 256]⟩
abbrev S0 : Shape := ⟨0, ![]⟩

/-- The identity matrix, as a row iota plus zero compared with a column iota. -/
def eye (hb : S0.BroadcastsInDim SM (![] : Fin 0 → Fin SM.rank)) : FVec Ideal SM .f32 :=
  uitofp (F := Ideal) .f32
    (cmpi .eq (addi (iotaInDim SM 32 0) (broadcastInDim SM ![] hb (constantI S0 32 0#32))) (iotaInDim SM 32 1))

/-- The square root of the sum of squared entries of (cov - identity). -/
def tail (hb : S0.BroadcastsInDim SM (![] : Fin 0 → Fin SM.rank)) (hr : SM.ReducesTo [0, 1] S0) (h0 : 0 < S0.numel)
    (cov : FVec Ideal SM .f32) : FVec Ideal S0 .f32 :=
  Host.sqrt (F := Ideal)
    (Host.reduceAdd (F := Ideal) (mulf (subf cov (eye hb)) (subf cov (eye hb))) (constant (F := Ideal) S0 .f32 0x00000000#32) hr h0)

end CovTail

end
-- ==== Proof.KernelTail.lean ====
/-
  The host operations after the grid: from the two per-half arrays to the result.

  The operations take the two halves of the column-sum array ([2,1,256]) and of the product array ([2,256,256]) by
  unit slices, reshape them to [256] and [256,256], add the halves, divide by 8192, form the outer product of the mean
  vector with itself (the mean broadcast down the columns times the mean broadcast along the rows), subtract it from
  the mean of products, and then apply the shared tail (CovTail.tail). Entry (i, j) of the matrix before the tail is
      (P0 (i, j) + P1 (i, j)) / 8192 - ((S0 i + S1 i) / 8192) * ((S0 j + S1 j) / 8192),
  with Sh, Ph the half-h entries of the two arrays; with the arrays the grid leaves (Arrays.final1, Arrays.final2)
  that is CovSpec.covK of the table.
-/
import proofs.«180944_j55817394979131_2_alg».proof.Proof.Arrays
import proofs.«180944_j55817394979131_2_alg».proof.Proof.Tail
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KTail

open Cert.KernelIdeal Cert.KernelIdeal.Gen CovSpec CovLaw Cert.KernelIdeal.Arrays

/-! ## The matrix before the tail, as a term over the two arrays -/

/-- The mean vector: the two halves of the column-sum array added, over 8192. -/
def meanArr (A1 : S2x1x256.Idx → EReal) : FVec Ideal S256 .f32 :=
  Host.divf (F := Ideal)
    (addf (F := Ideal)
      (fun i => shapeCast S256 (extractStridedSlice S1x1x256 ![0, 0, 0] A1 slices_S2x1x256_S1x1x256_0_0_0) shapeCasts_S1x1x256_S256 i : FVec Ideal S256 .f32)
      (fun i => shapeCast S256 (extractStridedSlice S1x1x256 ![1, 0, 0] A1 slices_S2x1x256_S1x1x256_1_0_0) shapeCasts_S1x1x256_S256 i : FVec Ideal S256 .f32))
    (broadcastInDim S256 ![] bcast_S_S256 (constant (F := Ideal) S_ .f32 0x46000000#32))

/-- The covariance matrix: mean of products minus the outer product of the means. -/
def covArr (A1 : S2x1x256.Idx → EReal) (A2 : S2x256x256.Idx → EReal) : FVec Ideal S256x256 .f32 :=
  subf (F := Ideal)
    (Host.divf (F := Ideal)
      (addf (F := Ideal)
        (fun i => shapeCast S256x256 (extractStridedSlice S1x256x256 ![0, 0, 0] A2 slices_S2x256x256_S1x256x256_0_0_0) shapeCasts_S1x256x256_S256x256 i : FVec Ideal S256x256 .f32)
        (fun i => shapeCast S256x256 (extractStridedSlice S1x256x256 ![1, 0, 0] A2 slices_S2x256x256_S1x256x256_1_0_0) shapeCasts_S1x256x256_S256x256 i : FVec Ideal S256x256 .f32))
      (broadcastInDim S256x256 ![] bcast_S_S256x256 (constant (F := Ideal) S_ .f32 0x46000000#32)))
    (mulf (F := Ideal)
      (broadcastInDim S256x256 ![0, 1] bcast_S256x1_S256x256_0_1 (broadcastInDim S256x1 ![0] bcast_S256_S256x1_0 (meanArr A1)))
      (broadcastInDim S256x256 ![0, 1] bcast_S1x256_S256x256_0_1 (broadcastInDim S1x256 ![1] bcast_S256_S1x256_1 (meanArr A1))))

/-! ## Layout operations read at an index -/

/-- Half h of the [2,1,256] array, reshaped to [256], at j. -/
theorem half_row (A1 : S2x1x256.Idx → EReal) (h : Fin 2) (off : Fin 3 → Nat) (hoff : off = ![h.val, 0, 0])
    (hs : S2x1x256.Slices off S1x1x256) (j : Fin 256) :
    shapeCast S256 (extractStridedSlice S1x1x256 off A1 hs) shapeCasts_S1x1x256_S256 (ix1 j) = A1 (ix3 h (0 : Fin 1) j) := by
  subst hoff
  refine (shapeCast_apply _ shapeCasts_S1x1x256_S256 (ix1 j) (ix3 (0 : Fin 1) (0 : Fin 1) j) (by
    rw [Shape.rowMajor_val_three, Shape.rowMajor_val_one]
    show (0 * 1 + 0) * 256 + j.val = j.val
    omega)).trans ?_
  refine extractStridedSlice_apply _ A1 hs _ (ix3 h (0 : Fin 1) j) fun a => ?_
  match a with
  | ⟨0, _⟩ => show h.val = h.val + 0; omega
  | ⟨1, _⟩ => show 0 = 0 + 0; omega
  | ⟨2, _⟩ => show j.val = 0 + j.val; omega

/-- Half h of the [2,256,256] array, reshaped to [256,256], at (i, j). -/
theorem half_mat (A2 : S2x256x256.Idx → EReal) (h : Fin 2) (off : Fin 3 → Nat) (hoff : off = ![h.val, 0, 0])
    (hs : S2x256x256.Slices off S1x256x256) (i j : Fin 256) :
    shapeCast S256x256 (extractStridedSlice S1x256x256 off A2 hs) shapeCasts_S1x256x256_S256x256 (ix2 i j) = A2 (ix3 h i j) := by
  subst hoff
  refine (shapeCast_1ab_ab_apply _ shapeCasts_S1x256x256_S256x256 i j).trans ?_
  refine extractStridedSlice_apply _ A2 hs _ (ix3 h i j) fun a => ?_
  match a with
  | ⟨0, _⟩ => show h.val = h.val + 0; omega
  | ⟨1, _⟩ => show i.val = 0 + i.val; omega
  | ⟨2, _⟩ => show j.val = 0 + j.val; omega

/-- A scalar broadcast to a vector or a matrix reads the scalar. -/
theorem splat_vec (x : S_.Idx → EReal) (i : Fin 256) : broadcastInDim S256 ![] bcast_S_S256 x (ix1 i) = x ix0 :=
  broadcastInDim_apply _ bcast_S_S256 x _ ix0 fun a => a.elim0
theorem splat_mat (x : S_.Idx → EReal) (i j : Fin 256) : broadcastInDim S256x256 ![] bcast_S_S256x256 x (ix2 i j) = x ix0 :=
  broadcastInDim_apply _ bcast_S_S256x256 x _ ix0 fun a => a.elim0

/-- A vector laid down the columns ([256] to [256,1] to [256,256]) reads, at (i, j), its entry i. -/
theorem col_bcast (v : S256.Idx → EReal) (i j : Fin 256) :
    broadcastInDim S256x256 ![0, 1] bcast_S256x1_S256x256_0_1 (broadcastInDim S256x1 ![0] bcast_S256_S256x1_0 v) (ix2 i j) = v (ix1 i) := by
  refine (broadcastInDim_apply _ bcast_S256x1_S256x256_0_1 _ (ix2 i j) (ix2 i (0 : Fin 1)) fun a => ?_).trans ?_
  · match a with
    | ⟨0, _⟩ => show i.val = if (256 : Nat) = 1 then 0 else i.val; rw [if_neg (by decide)]
    | ⟨1, _⟩ => show 0 = if (1 : Nat) = 1 then 0 else j.val; rw [if_pos rfl]
  · refine broadcastInDim_apply _ bcast_S256_S256x1_0 v (ix2 i (0 : Fin 1)) (ix1 i) fun a => ?_
    match a with
    | ⟨0, _⟩ => show i.val = if (256 : Nat) = 1 then 0 else i.val; rw [if_neg (by decide)]

/-- A vector laid along the rows ([256] to [1,256] to [256,256]) reads, at (i, j), its entry j. -/
theorem row_bcast (v : S256.Idx → EReal) (i j : Fin 256) :
    broadcastInDim S256x256 ![0, 1] bcast_S1x256_S256x256_0_1 (broadcastInDim S1x256 ![1] bcast_S256_S1x256_1 v) (ix2 i j) = v (ix1 j) := by
  refine (broadcastInDim_apply _ bcast_S1x256_S256x256_0_1 _ (ix2 i j) (ix2 (0 : Fin 1) j) fun a => ?_).trans ?_
  · match a with
    | ⟨0, _⟩ => show 0 = if (1 : Nat) = 1 then 0 else i.val; rw [if_pos rfl]
    | ⟨1, _⟩ => show j.val = if (256 : Nat) = 1 then 0 else j.val; rw [if_neg (by decide)]
  · refine broadcastInDim_apply _ bcast_S256_S1x256_1 v (ix2 (0 : Fin 1) j) (ix1 j) fun a => ?_
    match a with
    | ⟨0, _⟩ => show j.val = if (256 : Nat) = 1 then 0 else j.val; rw [if_neg (by decide)]

/-! ## The matrix entry by entry -/

/-- The mean vector of the per-half column sums is the two-half mean. -/
theorem meanArr_apply (X : SX.Idx → EReal) (i : Fin 256) : meanArr (sums X) (ix1 i) = meanK X i := by
  unfold meanArr
  show Ideal.div ((shapeCast S256 (extractStridedSlice S1x1x256 ![0, 0, 0] (sums X) slices_S2x1x256_S1x1x256_0_0_0) shapeCasts_S1x1x256_S256 (ix1 i))
      + (shapeCast S256 (extractStridedSlice S1x1x256 ![1, 0, 0] (sums X) slices_S2x1x256_S1x1x256_1_0_0) shapeCasts_S1x1x256_S256 (ix1 i)))
    (broadcastInDim S256 ![] bcast_S_S256 (constant (F := Ideal) S_ .f32 0x46000000#32) (ix1 i)) = _
  rw [half_row (sums X) 0 ![0, 0, 0] rfl, half_row (sums X) 1 ![1, 0, 0] rfl, splat_vec]
  rfl

/-- The covariance term of the per-half arrays is mean of products minus product of means. -/
theorem covArr_apply (X : SX.Idx → EReal) (i j : Fin 256) : covArr (sums X) (prods X) (ix2 i j) = covK X i j := by
  unfold covArr
  show Ideal.div ((shapeCast S256x256 (extractStridedSlice S1x256x256 ![0, 0, 0] (prods X) slices_S2x256x256_S1x256x256_0_0_0) shapeCasts_S1x256x256_S256x256 (ix2 i j))
      + (shapeCast S256x256 (extractStridedSlice S1x256x256 ![1, 0, 0] (prods X) slices_S2x256x256_S1x256x256_1_0_0) shapeCasts_S1x256x256_S256x256 (ix2 i j)))
      (broadcastInDim S256x256 ![] bcast_S_S256x256 (constant (F := Ideal) S_ .f32 0x46000000#32) (ix2 i j))
    - (broadcastInDim S256x256 ![0, 1] bcast_S256x1_S256x256_0_1 (broadcastInDim S256x1 ![0] bcast_S256_S256x1_0 (meanArr (sums X))) (ix2 i j))
      * (broadcastInDim S256x256 ![0, 1] bcast_S1x256_S256x256_0_1 (broadcastInDim S1x256 ![1] bcast_S256_S1x256_1 (meanArr (sums X))) (ix2 i j)) = _
  rw [half_mat (prods X) 0 ![0, 0, 0] rfl, half_mat (prods X) 1 ![1, 0, 0] rfl, splat_mat, col_bcast, row_bcast, meanArr_apply, meanArr_apply]
  rfl

/-! ## The tail's value -/

variable (m : (ℓ : Loc nD τ sig) → Buf (Elt Ideal) ℓ)

set_option maxHeartbeats 4000000 in
/-- The result buffer after the host operations: the shared tail of the covariance term of the two arrays. -/
theorem result_value (c : Dev nD) :
    Pipeline.afterTail₀ cfgs (dats m) 0 (V0 m) [hostOps1] c main_v30
      = CovTail.tail bcast_S_S256x256 reducesTo_S256x256_S_d0_1 h_S_
          (covArr (sums (V m c main_arg0)) (prods (V m c main_arg0))) := by
  have e1 : Pipeline.withArrays (cfgs 0).spec c (V0 m c) (fun w => (dats m 0 c).arrAt w (cfgs 0).N) (Proc.devRef .tc main_v0_0)
      = sums (V m c main_arg0) := (Pipeline.withArrays_arr spec0 launch0.win.arr_inj c _ _ 1).trans (final1 m c)
  have e2 : Pipeline.withArrays (cfgs 0).spec c (V0 m c) (fun w => (dats m 0 c).arrAt w (cfgs 0).N) (Proc.devRef .tc main_v0_1)
      = prods (V m c main_arg0) := (Pipeline.withArrays_arr spec0 launch0.win.arr_inj c _ _ 2).trans (final2 m c)
  unfold Pipeline.afterTail₀
  show StableHlo.after hostOps1 _ (Proc.devRef .tc main_v30) = _
  after_results_simp
  rw [e1, e2]
  rfl

/-- The run, read: the result buffer at the shared tail of the covariance term of the table as launched, the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v30)
          = CovTail.tail bcast_S_S256x256 reducesTo_S256x256_S_d0_1 h_S_
              (covArr (sums (m ((c.tc : Thread nD τ).loc main_arg0))) (prods (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v30 (Pipeline.mem_restRefs_of main_v30 (by decide) (by decide))).trans (result_value m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KTail

end
-- ==== Proof.RefSide.lean ====
/-
  The reference's covariance matrix, entry by entry.

  The reference sums each column of the table from zero and divides by 8192 (the column means), subtracts the means from
  every row, contracts the centred table with itself over the rows and divides by 8192. Read at (i, j) that is
      (sum_k (X (k, i) - m i) * (X (k, j) - m j)) / 8192,     m i = (0 + sum_k X (k, i)) / 8192,
  which is CovSpec.covR. Each step is one read-at-an-index lemma of the reference's operations; the index functions
  they compose are identified with (k, i), (k, j) and i by their coordinates.
-/
import proofs.«180944_j55817394979131_2_alg».proof.Proof.Gen.ReferenceIdeal.Read
import proofs.«180944_j55817394979131_2_alg».proof.Proof.CovSpec
import proofs.«180944_j55817394979131_2_alg».proof.Proof.Tail

noncomputable section

namespace Cert.ReferenceIdeal.RefSide

open Cert.ReferenceIdeal Cert.ReferenceIdeal.Gen Cert.ReferenceIdeal.Read Idealize.ShloMosaic Idealize.ShloMosaic.ValueIdx CovSpec

/-- The reduced column's source index at row k is (k, i). -/
theorem idx_col (i : Fin 256) (k : Fin 8192) : idx_main_v0 (ix1 i) k = ix2 k i :=
  funext fun a => Fin.ext (by match a with | ⟨0, _⟩ => rfl | ⟨1, _⟩ => rfl)

/-- The contraction's operand indices at output (i, j) and row k are (k, i) and (k, j). -/
theorem idx_lhs (i j : Fin 256) (k : Fin 8192) : lidx_main_v6 (ix2 i j) k = ix2 k i :=
  funext fun a => Fin.ext (by match a with | ⟨0, _⟩ => rfl | ⟨1, _⟩ => rfl)
theorem idx_rhs (i j : Fin 256) (k : Fin 8192) : ridx_main_v6 (ix2 i j) k = ix2 k j :=
  funext fun a => Fin.ext (by match a with | ⟨0, _⟩ => rfl | ⟨1, _⟩ => rfl)

/-- The mean broadcast along the rows reads, at (k, i), the mean of column i. -/
theorem idx_mean (k : Fin 8192) (i : Fin 256) : idx_main_v3 (idx_main_v4 (ix2 k i)) = ix1 i :=
  funext fun a => Fin.ext (by match a with | ⟨0, _⟩ => rfl)

/-- The column mean: zero plus the column's sum, over 8192. -/
theorem mean_apply (X : (⟨S8192x256, .f32⟩ : BufTy).Contents (Elt Ideal)) (i : Fin 256) :
    val_main_v2 (F := Ideal) X (ix1 i) = meanR X i := by
  rw [val_main_v2_apply, val_main_v0_apply, val_main_v1_apply, val_main_cst_0_apply, val_main_cst_apply]
  unfold meanR
  simp only [idx_col, Ideal.hostDivf_def, Ideal.ofBits_def]

/-- The covariance entry: the centred products summed over the rows, over 8192. -/
theorem cov_apply (X : (⟨S8192x256, .f32⟩ : BufTy).Contents (Elt Ideal)) (i j : Fin 256) :
    val_main_v8 (F := Ideal) X (ix2 i j) = covR X i j := by
  rw [val_main_v8_apply, val_main_v6_apply, val_main_v7_apply, val_main_cst_1_apply]
  simp only [idx_lhs, idx_rhs, val_main_v5_apply, val_main_v4_apply, val_main_v3_apply, idx_mean, mean_apply]
  unfold covR
  simp only [Ideal.hostDivf_def, Ideal.subf_def, Ideal.ofBits_def]

/-- The reference's result is the shared tail of its covariance matrix. -/
theorem result_eq_tail (X : (⟨S8192x256, .f32⟩ : BufTy).Contents (Elt Ideal)) :
    val_main_v18 (F := Ideal) X
      = CovTail.tail bcast_S_S256x256 reducesTo_S256x256_S_d0_1 h_S_ (val_main_v8 (F := Ideal) X) := rfl

end Cert.ReferenceIdeal.RefSide

end
-- ==== Proof.Finite.lean ====
/-
  From the precondition to real entries.

  The precondition is that every entry x of the table satisfies |x| < +infinity (an and-reduction of the comparisons
  that came out 1). Over the extended reals |x| = max x (-x), which is the top element exactly when x is one of the two
  infinities; so every entry is a real number. This is what the covariance identity needs: it distributes a product
  over a sum, which holds among reals and fails at the infinities.
-/
import proofs.«180944_j55817394979131_2_alg».proof.Pre_finite_inputs
import proofs.«180944_j55817394979131_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

/-- The scalar shape has one index. -/
instance : Subsingleton S_.Idx := ⟨fun a b => funext fun d => d.elim0⟩

/-- The word 0x7F800000 denotes +infinity. -/
theorem inf_word : Ideal.ofBits .f32 0x7F800000#32 = ⊤ := by simp [Ideal.ofBits, Ideal.ieee]

/-- An extended real whose absolute value is below +infinity is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the table is a real. -/
theorem entries_real (X : FVec Ideal S8192x256 .f32) (L : IVec S8192 32)
    (h : fn (F := Ideal) X L = fun _ => 1#1) (idx : S8192x256.Idx) : ∃ r : ℝ, X idx = (r : EReal) := by
  have h0 := congrFun h ValueIdx.ix0
  dsimp only [fn] at h0
  have hp := Host.reduce_andi_all _ _ _ _ _ h0 idx
  have hp' : Ideal.cmp .olt (max (X idx) (-(X idx))) (Ideal.ofBits .f32 0x7F800000#32) = 1#1 := hp
  rw [inf_word] at hp'
  refine real_of_abs_lt_top _ ?_
  by_contra hn
  simp [Ideal.cmp, hn] at hp'

end Cert.Pre_finite_inputs.Finite

end
-- ==== Proof.lean ====
/-
  The certificate: a batch covariance loss computed in one pass against the two-pass reference.

  The table X is [8192, 256]. The kernel's grid (two halves by two steps of 2048 rows) accumulates per half the column
  sums and the matrix of products; the host then adds the halves and forms
      cov = (sum_k X k i X k j) / 8192 - mean i * mean j,      mean = (sum_k X k .) / 8192.
  The reference centres the table by the column means first and forms (sum_k (X k i - mean i)(X k j - mean j)) / 8192.
  Both then take the square root of the sum of squared entries of (cov - identity), by the same operations.

  The two covariance matrices are equal entry by entry when every entry of X is a real number (Proof/CovLaw.lean: expand
  the centred product; Proof/CovSpec.lean: over the extended reals, with the 8192 rows split into the grid's four tiles),
  and the precondition says exactly that (Proof/Finite.lean). The kernel's side is read off its frame run: what a step
  leaves in the accumulators (Proof/Pieces.lean), those values as sums (Proof/PayIdx.lean), the two result arrays
  (Proof/Arrays.lean), the host operations after the grid (Proof/KernelTail.lean). The reference's side is its run read
  one operation at a time (Proof/RefSide.lean). The shared last operations are one function (Proof/Tail.lean).
  No operation of the kernel was rewritten for the ideal reading, so that conjunct is trivial; the three frames are the
  generated frame runs (the reference's is its run with the result dropped).
-/
import proofs.«180944_j55817394979131_2_alg».proof.Defs
import proofs.«180944_j55817394979131_2_alg».proof.Proof.Gen.Kernel
import proofs.«180944_j55817394979131_2_alg».proof.Proof.Gen.Kernel.Skeleton
import proofs.«180944_j55817394979131_2_alg».proof.Proof.Gen.Kernel.Launch
import proofs.«180944_j55817394979131_2_alg».proof.Proof.Gen.Kernel.Points
import proofs.«180944_j55817394979131_2_alg».proof.Proof.Gen.Kernel.Frame
import proofs.«180944_j55817394979131_2_alg».proof.Proof.Gen.KernelIdeal
import proofs.«180944_j55817394979131_2_alg».proof.Proof.Gen.KernelIdeal.Skeleton
import proofs.«180944_j55817394979131_2_alg».proof.Proof.Gen.KernelIdeal.Launch
import proofs.«180944_j55817394979131_2_alg».proof.Proof.Gen.KernelIdeal.Points
import proofs.«180944_j55817394979131_2_alg».proof.Proof.Gen.KernelIdeal.Frame
import proofs.«180944_j55817394979131_2_alg».proof.Proof.Gen.ReferenceIdeal
import proofs.«180944_j55817394979131_2_alg».proof.Proof.Gen.ReferenceIdeal.Run
import proofs.«180944_j55817394979131_2_alg».proof.Proof.Gen.ReferenceIdeal.Read
import proofs.«180944_j55817394979131_2_alg».proof.Proof.Gen.Pre_finite_inputs
import proofs.«180944_j55817394979131_2_alg».proof.Proof.KernelTail
import proofs.«180944_j55817394979131_2_alg».proof.Proof.RefSide
import proofs.«180944_j55817394979131_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: its generated frame. -/
theorem frame_k : Cert.frame_Kernel := fun m ρ _ => Cert.Kernel.Gen.frame m ρ

/-- The idealized kernel runs and keeps its arguments: its generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten for the ideal reading. -/
theorem preserves : Cert.preserves_Kernel_KernelIdeal := trivial

/-- Both programs end at the shared tail of a covariance matrix of the same table, and on a table of reals the two
    matrices agree entry by entry. -/
theorem algebraic : Cert.algebraic_KernelIdeal_ReferenceIdeal := by
  intro m ρ m' ρ' hpre hagree
  refine ⟨_, Cert.KernelIdeal.KTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefSide.result_eq_tail, (hagree c).1]
  refine congrArg (CovTail.tail _ _ _) ?_
  funext idx
  obtain ⟨i, j, rfl⟩ : ∃ (i j : Fin 256), idx = ix2 i j := ⟨idx 0, idx 1, eq_ix2 idx⟩
  rw [Cert.ReferenceIdeal.RefSide.cov_apply, Cert.KernelIdeal.KTail.covArr_apply]
  exact (CovSpec.cov_eq _ (fun k => Cert.Pre_finite_inputs.Finite.entries_real _ _ (hpre c) k) i j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
